-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : IVec S4096x4096 32) (main_arg2 : IVec S4096 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  main_v3
-- ==== Kernel.lean ====
abbrev S4096x4096 : Shape := ⟨2, ![4096, 4096]⟩
abbrev S4096 : Shape := ⟨1, ![4096]⟩
abbrev S1x4096 : Shape := ⟨2, ![1, 4096]⟩
abbrev S512x4096 : Shape := ⟨2, ![512, 4096]⟩
abbrev S1x512 : Shape := ⟨2, ![1, 512]⟩
abbrev S512x512 : Shape := ⟨2, ![512, 512]⟩

abbrev nBuf : Space → Nat
  | .hbm => 7
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .i32⟩
  | .hbm, ⟨2, _⟩ => ⟨S4096, .i32⟩
  | .hbm, ⟨3, _⟩ => ⟨S4096x4096, .bf16⟩
  | .hbm, ⟨4, _⟩ => ⟨S4096, .f32⟩
  | .hbm, ⟨5, _⟩ => ⟨S1x4096, .f32⟩
  | .hbm, ⟨6, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .i32⟩
  | .hbm, ⟨2, _⟩ => ⟨S4096, .i32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S1x4096, .f32⟩
  | .hbm, ⟨10, _⟩ => ⟨S4096x4096, .f32⟩
  | .hbm, ⟨11, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Spec.lean ====
/-
  The function both programs compute, stated once and over no program: a linear layer with integer (fixed-point)
  weights and bias,

      out[i, j] = (Σ_k x[i, k] · w[j, k]) · 2⁻⁷ + b[j],

  where `x` is an array of extended reals, `w` and `b` are arrays of 32-bit words read as the signed integers they
  denote. One side of the comparison multiplies the contraction by the float `2⁻⁷`, the other divides it by the float
  `128`; on the extended reals these agree at every value, the infinities included, because `128` is a nonzero real
  (no finiteness of `x` is used anywhere). The two float patterns are evaluated here, once.
-/
import Idealize.ShloMosaic.PureOps.Ideal
import Idealize.ShloMosaic.Lib.ValueIdx

noncomputable section

open scoped BigOperators

namespace Cert.QLinear

open Idealize.ShloMosaic Idealize.ShloMosaic.ValueIdx

/-- A machine word read as the signed integer it denotes, as an extended real. Converting an integer word to any float
    format is this at the exact instance, whatever the format. -/
def intVal {n : Nat} (b : BitVec n) : EReal := ((b.toInt : ℝ) : EReal)

theorem sitofp_f32 (b : BitVec 32) : FloatOps.sitofp (F := Ideal) .f32 b = intVal b := rfl
theorem sitofp_bf16 (b : BitVec 32) : FloatOps.sitofp (F := Ideal) .bf16 b = intVal b := rfl

/-- The pattern `0x3C000000` is the float `2⁻⁷ = 1/128`. -/
theorem ofBits_inv128 : Ideal.ofBits .f32 0x3C000000#32 = ((1 / 128 : ℝ) : EReal) := by
  simp [Ideal.ofBits, Ideal.ieee, -EReal.coe_mul]; norm_num

/-- The pattern `0x43000000` is the float `128`. -/
theorem ofBits_128 : Ideal.ofBits .f32 0x43000000#32 = ((128 : ℝ) : EReal) := by
  simp [Ideal.ofBits, Ideal.ieee, -EReal.coe_mul]; norm_num

/-- Dividing by the float `128` is multiplying by the float `2⁻⁷`, on every extended real. -/
theorem div128_eq_mul (y : EReal) :
    Ideal.div y (Ideal.ofBits .f32 0x43000000#32) = y * Ideal.ofBits .f32 0x3C000000#32 := by
  rw [ofBits_128, ofBits_inv128, Ideal.div_coe (by norm_num : (128 : ℝ) ≠ 0)]

/-- The layer: row `i` of `x` against row `j` of the integer weights, scaled by `2⁻⁷`, plus the integer bias of
    column `j`. -/
def layer (x : (⟨2, ![4096, 4096]⟩ : Shape).Idx → EReal) (w : (⟨2, ![4096, 4096]⟩ : Shape).Idx → BitVec 32)
    (b : (⟨1, ![4096]⟩ : Shape).Idx → BitVec 32) : (⟨2, ![4096, 4096]⟩ : Shape).Idx → EReal :=
  fun i => (∑ k : Fin 4096, x (ix2 (i 0) k) * intVal (w (ix2 (i 1) k))) * Ideal.ofBits .f32 0x3C000000#32
    + intVal (b (ix1 (i 1)))

theorem layer_apply (x : (⟨2, ![4096, 4096]⟩ : Shape).Idx → EReal) (w : (⟨2, ![4096, 4096]⟩ : Shape).Idx → BitVec 32)
    (b : (⟨1, ![4096]⟩ : Shape).Idx → BitVec 32) (r c : Fin 4096) :
    layer x w b (ix2 r c)
      = (∑ k : Fin 4096, x (ix2 r k) * intVal (w (ix2 c k))) * Ideal.ofBits .f32 0x3C000000#32 + intVal (b (ix1 c)) := rfl

end Cert.QLinear

end
-- ==== Proof.RefIsLayer.lean ====
/-
  The reference program's result, read one operation at a time, is the layer of `Spec.lean`: at output index `(r, c)`
  the host contraction pairs `x[r, k]` with the converted weight `w[c, k]` (both contracted on their second axis), the
  quotient by the float `128` is the product with `2⁻⁷`, and the two broadcasts of the converted bias read it at
  column `c`.
-/
import proofs.«162370_j47923245089349_2_alg».proof.Proof.Gen.ReferenceIdeal.Read
import proofs.«162370_j47923245089349_2_alg».proof.Proof.Spec

noncomputable section

open scoped BigOperators

namespace Cert.QLinear.Ref

open Cert.ReferenceIdeal Cert.ReferenceIdeal.Read Idealize.ShloMosaic Idealize.ShloMosaic.ValueIdx Cert.QLinear

/-- The left operand of the contraction at output `(r, c)` and step `k` is read at `(r, k)`. -/
theorem lidx_eq (r c k : Fin 4096) : lidx_main_v2 (ix2 r c) k = ix2 r k :=
  funext fun a => Fin.ext (by match a with | ⟨0, _⟩ => rfl | ⟨1, _⟩ => rfl)

/-- The right operand is read at `(c, k)`: the weights are contracted along their second axis too. -/
theorem ridx_eq (r c k : Fin 4096) : ridx_main_v2 (ix2 r c) k = ix2 c k :=
  funext fun a => Fin.ext (by match a with | ⟨0, _⟩ => rfl | ⟨1, _⟩ => rfl)

/-- The bias, broadcast to a row and then down the rows, is read at the output's column. -/
theorem bidx_eq (r c : Fin 4096) : idx_main_v5 (idx_main_v6 (ix2 r c)) = ix1 c :=
  funext fun a => Fin.ext (by match a with | ⟨0, _⟩ => rfl)

/-- The reference's result array is the layer of its three arguments. -/
theorem result_eq (x0 : (⟨S4096x4096, .f32⟩ : BufTy).Contents (Elt Ideal)) (x1 : (⟨S4096x4096, .i32⟩ : BufTy).Contents (Elt Ideal))
    (x2 : (⟨S4096, .i32⟩ : BufTy).Contents (Elt Ideal)) :
    val_main_v7 (F := Ideal) x0 x1 x2 = layer x0 x1 x2 := by
  funext i
  obtain ⟨r, c, rfl⟩ : ∃ (r c : Fin 4096), i = ix2 r c := ⟨i 0, i 1, eq_ix2 i⟩
  rw [val_main_v7_apply, val_main_v4_apply, val_main_v2_apply, val_main_v3_apply, val_main_cst_apply,
    val_main_v6_apply, val_main_v5_apply, val_main_v1_apply, layer_apply]
  simp only [lidx_eq, ridx_eq, bidx_eq, val_main_v0_apply, Ideal.addf_def, Ideal.hostDivf_def, Ideal.ofBits_def,
    sitofp_f32, div128_eq_mul]

end Cert.QLinear.Ref

end
-- ==== Proof.BlockReads.lean ====
/-
  The three input blocks of a grid point, read at one element, as entries of the argument arrays.

  The grid is 8 × 8; point `t` has a row-block number `I` and a column-block number `J` (the two components of the
  output window's block index). The `x` window's block at `t` is rows `512·I … 512·I + 511` of `x`, all 4096 columns;
  the weight window's block is rows `512·J … 512·J + 511` of the converted weights, all columns; the bias window's block
  is columns `512·J … 512·J + 511` of the converted bias laid out as one row. The converted weights and the bias row are
  what the host operations ahead of the kernel leave: each integer word read as the signed integer it denotes.
-/
import proofs.«162370_j47923245089349_2_alg».proof.Proof.Gen.KernelIdeal.Value
import proofs.«162370_j47923245089349_2_alg».proof.Proof.Spec
import Idealize.ShloMosaic.Lib.StableHlo.Run
import Idealize.ShloMosaic.Lib.ValueLayout

noncomputable section

namespace Cert.QLinear.Blocks

open Cert.KernelIdeal Cert.KernelIdeal.Gen Idealize.ShloMosaic Idealize.ShloMosaic.TcCoe Idealize.SL.Sem
open Idealize.ShloMosaic.StableHlo Idealize.ShloMosaic.ValueIdx Cert.QLinear

variable (m : (ℓ : Loc nD τ sig) → Buf (Elt Ideal) ℓ)

/-! ## The arrays the kernel finds -/

/-- The weight array the kernel is launched on: the integer weights converted element by element. -/
theorem weights_eq (c : Dev nD) :
    (V m c main_v0 : S4096x4096.Idx → EReal) = sitofp (F := Ideal) .bf16 (m ((c : Thread nD τ).loc main_arg1)) := by
  dsimp only [Gen.V, Gen.hostOps0]; after_results

/-- The bias array the kernel is launched on: the integer bias converted, then laid out as one row. -/
theorem biasRow_eq (c : Dev nD) :
    (V m c main_v2 : S1x4096.Idx → EReal)
      = shapeCast S1x4096 (sitofp (F := Ideal) .f32 (m ((c : Thread nD τ).loc main_arg2))) shapeCasts_S4096_S1x4096 := by
  dsimp only [Gen.V, Gen.hostOps0]; after_results; rfl

/-! ## The index maps over the grid -/

/-- Each input window's block index in terms of the output window's `(I, J)`: `x` follows `I`, weights and bias follow
    `J`, and the unused component is `0`; `I` and `J` stay below 8. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every pair `(I, J)` of block numbers is some grid point's. -/
theorem idx_onto : ∀ (I J : Fin 8), ∃ t : Fin cfg0.N, win0_3.index t = ![I.val, J.val] :=
  (by decide +kernel : ∀ (I J : Fin 8), ∃ t : Fin grid0.N, win0_3.index t = ![I.val, J.val])

/-! ## The blocks at an element -/

/-- The `x` block of point `t` at `(p, k)` is `x` at row `512·I + p`, column `k`. -/
theorem xBlock_apply (c : Dev nD) (t : Fin cfg0.N) (p : Fin 512) (k : Fin 4096) (r : Fin 4096)
    (hr : r.val = win0_3.index t (0 : Fin 2) * 512 + p.val) :
    iblk m c 0 t (ix2 p k) = m ((c : Thread nD τ).loc main_arg0) (ix2 r k) := by
  obtain ⟨e0, e1, -, -, -, -, -, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = r.val; omega
  | ⟨1, _⟩ => show win0_0.index t (1 : Fin 2) * 4096 + 1 * k.val = k.val; omega

/-- The weight block of point `t` at `(q, k)` is the integer weight at row `512·J + q`, column `k`. -/
theorem wBlock_apply (c : Dev nD) (t : Fin cfg0.N) (q : Fin 512) (k : Fin 4096) (s : Fin 4096)
    (hs : s.val = win0_3.index t (1 : Fin 2) * 512 + q.val) :
    iblk m c 1 t (ix2 q k) = intVal (m ((c : Thread nD τ).loc main_arg1) (ix2 s k)) := by
  obtain ⟨-, -, e2, e3, -, -, -, -⟩ := idx_facts t
  have he : ((cfg0.win 1).blk t).view.emb (ix2 q k) = ix2 s k := funext fun a => Fin.ext (by
    match a with
    | ⟨0, _⟩ => show win0_1.index t (0 : Fin 2) * 512 + 1 * q.val = s.val; omega
    | ⟨1, _⟩ => show win0_1.index t (1 : Fin 2) * 4096 + 1 * k.val = k.val; omega)
  show V m c main_v0 (((cfg0.win 1).blk t).view.emb (ix2 q k)) = _
  rw [weights_eq, he]
  rfl

/-- The bias block of point `t` at `(0, q)` is the integer bias at `512·J + q`. -/
theorem bBlock_apply (c : Dev nD) (t : Fin cfg0.N) (q : Fin 512) (s : Fin 4096)
    (hs : s.val = win0_3.index t (1 : Fin 2) * 512 + q.val) :
    iblk m c 2 t (ix2 (0 : Fin 1) q) = intVal (m ((c : Thread nD τ).loc main_arg2) (ix1 s)) := by
  obtain ⟨-, -, -, -, e4, e5, -, -⟩ := idx_facts t
  have he : ((cfg0.win 2).blk t).view.emb (ix2 (0 : Fin 1) q) = ix2 (0 : Fin 1) s := funext fun a => Fin.ext (by
    match a with
    | ⟨0, _⟩ => show win0_2.index t (0 : Fin 2) * 1 + 1 * 0 = 0; omega
    | ⟨1, _⟩ => show win0_2.index t (1 : Fin 2) * 512 + 1 * q.val = s.val; omega)
  show V m c main_v2 (((cfg0.win 2).blk t).view.emb (ix2 (0 : Fin 1) q)) = _
  rw [biasRow_eq, he, shapeCast_a_1a_apply]
  rfl

end Cert.QLinear.Blocks

end
-- ==== Proof.Payload.lean ====
/-
  What the kernel's body computes from its three loaded blocks, read at one element `(p, q)` of the 512 × 512 output
  block: the block product contracts row `p` of the `x` block with row `q` of the weight block over all 4096 columns
  (both operands are contracted along their second axis, and the accumulator starts at zero), the result is scaled by
  the float `2⁻⁷`, and the one-row bias block, broadcast down the rows, adds its entry at column `q`. Narrowing `x` to
  the 16-bit format is the identity on extended reals, and the two shape casts are casts of a shape to itself.
-/
import proofs.«162370_j47923245089349_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.QLinear.Body

open Cert.KernelIdeal Cert.KernelIdeal.Gen Idealize.ShloMosaic Idealize.ShloMosaic.ValueIdx

/-- The block product's dimension numbers: both operands contracted on axis 1, rows of each kept. -/
abbrev blockDot : DotDims S512x4096 S512x4096 S512x512 := dot_S512x4096_S512x4096_S512x512_1_1_0_0_n_n

theorem lhs_row (j : S512x512.Idx) (s : blockDot.contr.Idx) : (blockDot.lhsIdx j s 0).val = (j 0).val := by
  unfold DotDims.lhsIdx
  rw [dif_neg (show ¬(0 : Fin S512x4096.rank) ∈ blockDot.lhsBatch by decide),
    dif_pos (show (0 : Fin S512x4096.rank) ∈ blockDot.lhsNonContracting by decide)]
  rfl
theorem lhs_col (j : S512x512.Idx) (s : blockDot.contr.Idx) : (blockDot.lhsIdx j s 1).val = (s ⟨0, by decide⟩).val :=
  blockDot.lhsIdx_val_of_single rfl j s
theorem rhs_row (j : S512x512.Idx) (s : blockDot.contr.Idx) : (blockDot.rhsIdx j s 0).val = (j 1).val := by
  unfold DotDims.rhsIdx
  rw [dif_neg (show ¬(0 : Fin S512x4096.rank) ∈ blockDot.rhsBatch by decide),
    dif_pos (show (0 : Fin S512x4096.rank) ∈ blockDot.rhsNonContracting by decide)]
  rfl
theorem rhs_col (j : S512x512.Idx) (s : blockDot.contr.Idx) : (blockDot.rhsIdx j s 1).val = (s ⟨0, by decide⟩).val :=
  blockDot.rhsIdx_val_of_single rfl j s

/-- The block product into the zero accumulator, at `(p, q)`: row `p` of the left block against row `q` of the right. -/
theorem blockProduct_apply (a b : FVec Ideal S512x4096 .bf16) (p q : Fin 512) :
    FloatOps.matmul blockDot none a b (constant S512x512 .f32 0x00000000#32) (ix2 p q)
      = ∑ k : Fin 4096, a (ix2 p k) * b (ix2 q k) := by
  rw [Ideal.matmul_constant_zero_apply, ← Equiv.sum_comp (contrEquiv1 blockDot 4096 rfl rfl).symm]
  refine Finset.sum_congr rfl fun k _ => ?_
  have hk := contrEquiv1_symm_val blockDot 4096 rfl rfl k
  have el : blockDot.lhsIdx (ix2 p q) ((contrEquiv1 blockDot 4096 rfl rfl).symm k) = ix2 p k :=
    funext fun ax => Fin.ext (by
      match ax with
      | ⟨0, _⟩ => exact lhs_row _ _
      | ⟨1, _⟩ => exact (lhs_col _ _).trans hk)
  have er : blockDot.rhsIdx (ix2 p q) ((contrEquiv1 blockDot 4096 rfl rfl).symm k) = ix2 q k :=
    funext fun ax => Fin.ext (by
      match ax with
      | ⟨0, _⟩ => exact rhs_row _ _
      | ⟨1, _⟩ => exact (rhs_col _ _).trans hk)
  rw [el, er]

/-- The body's stored value at `(p, q)`. -/
theorem payload_apply (x : FVec Ideal S512x4096 .f32) (w : FVec Ideal S512x4096 .bf16) (b : FVec Ideal S1x512 .f32)
    (p q : Fin 512) :
    k0_pay1 (F := Ideal) x w b (ix2 p q)
      = (∑ k : Fin 4096, x (ix2 p k) * w (ix2 q k)) * Ideal.ofBits .f32 0x3C000000#32 + b (ix2 (0 : Fin 1) q) := by
  unfold k0_pay1
  rw [shapeCast_self, shapeCast_self, addf_apply, mulf_apply, broadcast_apply, broadcastTo_1b_ab_apply]
  simp only [matmul]
  rw [blockProduct_apply]
  rfl

end Cert.QLinear.Body

end
-- ==== Proof.WholeArray.lean ====
/-
  From the blocks to the whole result array.

  What grid point `t` writes back is the body's stored value of the point's three input blocks. Read at `(p, q)` of
  the 512 × 512 output block, that is the layer of `Spec.lean` at row `512·I + p`, column `512·J + q` of the argument
  arrays — so point `t` writes block `(I, J)` of one whole-array function. The 64 blocks tile the 4096 × 4096 array
  (index `(r, s)` lies in the block of the point with `I = r / 512`, `J = s / 512`), hence after the run the result
  array is the layer of the three arguments, and the arguments are unchanged.
-/
import proofs.«162370_j47923245089349_2_alg».proof.Proof.BlockReads
import proofs.«162370_j47923245089349_2_alg».proof.Proof.Payload

noncomputable section

open scoped BigOperators

namespace Cert.QLinear.Blocks

open Cert.KernelIdeal Cert.KernelIdeal.Gen Idealize.ShloMosaic Idealize.ShloMosaic.TcCoe Idealize.SL.Sem
open Idealize.ShloMosaic.ValueIdx Cert.QLinear
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl

/-- Point `t` writes back block `t` of the layer of the argument arrays. -/
theorem flushed_eq (c : Dev nD) (t : Fin cfg0.N) :
    (dats m 0 c).flushed 3 t
      = ((cfg0.win 3).blk t).view.read (Elt Ideal)
          (layer (m ((c : Thread nD τ).loc main_arg0)) (m ((c : Thread nD τ).loc main_arg1)) (m ((c : Thread nD τ).loc main_arg2))) := by
  rw [Cert.KernelIdeal.Value.flushed3]
  unfold out0_3
  rw [View.canon_unit_zero origin2]
  simp only [View.ld_unit_zero (S := S512x4096) origin2, View.ld_unit_zero (S := S1x512) origin2]
  obtain ⟨-, -, -, -, -, -, hI, hJ⟩ := idx_facts t
  funext j
  obtain ⟨p, q, rfl⟩ : ∃ (p q : Fin 512), j = ix2 p q := ⟨j 0, j 1, eq_ix2 j⟩
  obtain ⟨r, hr⟩ : ∃ r : Fin 4096, r.val = win0_3.index t (0 : Fin 2) * 512 + p.val := ⟨⟨_, by omega⟩, rfl⟩
  obtain ⟨s, hs⟩ : ∃ s : Fin 4096, s.val = win0_3.index t (1 : Fin 2) * 512 + q.val := ⟨⟨_, by omega⟩, rfl⟩
  have hemb : ((cfg0.win 3).blk t).view.emb (ix2 p q) = ix2 r s :=
    funext fun a => Fin.ext (by
      match a with
      | ⟨0, _⟩ => show win0_3.index t (0 : Fin 2) * 512 + 1 * p.val = r.val; omega
      | ⟨1, _⟩ => show win0_3.index t (1 : Fin 2) * 512 + 1 * q.val = s.val; omega)
  show k0_pay1 (F := Ideal) (iblk m c 0 t) (iblk m c 1 t) (iblk m c 2 t) (ix2 p q)
    = layer _ _ _ (((cfg0.win 3).blk t).view.emb (ix2 p q))
  rw [hemb, layer_apply]
  refine (Body.payload_apply _ _ _ p q).trans ?_
  refine congrArg₂ (· + ·) (congrArg (· * _) (Finset.sum_congr rfl fun k _ => ?_)) ?_
  · rw [xBlock_apply m c t p k r hr, wBlock_apply m c t q k s hs]
  · exact bBlock_apply m c t q s hs

/-- An index of the result array is in point `t`'s block iff each coordinate is in the block's range on its axis. -/
theorem mem_blk (t : Fin cfg0.N) (i : S4096x4096.Idx) :
    i ∈ ((cfg0.win 3).blk t).view.set
      ↔ ∀ a : Fin 2, win0_3.index t a * S512x512.size a ≤ (i a).val ∧ (i a).val < win0_3.index t a * S512x512.size a + S512x512.size a := by
  show i ∈ ((View.whole main_v3).slice (win0_3.rect t)).set ↔ _
  rw [View.set_slice_whole, Rect.mem_set_unit]
  exact Iff.rfl

/-- Every index of the result array is in the block of the point whose block numbers are its coordinates' quotients by 512. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- The result array after the run is the layer of the argument arrays. -/
theorem final (c : Dev nD) :
    (dats m 0 c).arrAt 3 cfg0.N
      = layer (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel program's run: every weakly fair execution terminates with the result array at the layer of the
    arguments and the arguments unchanged. -/
theorem run : θ_run defs (onTc (τ := τ) (main (F := Ideal))) ⟨m, fun _ => 0, ρ⟩ fun r => ∀ c : Dev nD,
      r.2.mem ((c : Thread nD τ).loc main_v3)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.QLinear.Blocks

end
-- ==== Proof.lean ====
/-
  The kernel and its reference compute the same linear layer with integer (fixed-point) weights and bias,

      out[i, j] = (Σ_k x[i, k] · w[j, k]) · 2⁻⁷ + b[j]      (x : 4096 × 4096 floats; w : 4096 × 4096 and b : 4096 integers).

  The kernel converts the weights and the bias on the host, then runs an 8 × 8 grid: point `(I, J)` multiplies the
  512-row block `I` of `x` with the 512-row block `J` of the weights (contracting all 4096 columns of both), scales the
  512 × 512 product by the float `2⁻⁷` and adds block `J` of the bias row to every row. The reference contracts the whole
  arrays at once, DIVIDES by the float `128` and adds the broadcast bias. On the extended reals:
    • an integer word converted to any float format is the integer it denotes, so the two conversions of the weights
      (to a 16-bit and to a 32-bit format) give the same array, and narrowing `x` before the product changes nothing;
    • dividing by `128` is multiplying by `2⁻⁷` at every value, the infinities included — no finiteness of `x` is needed;
    • the 64 output blocks tile the result, and each is the corresponding block of the one whole-array function.
  Modules: `Spec` (the layer and the scalar law), `RefIsLayer` (the reference's result is the layer), `Payload` (the body's
  stored value at an element), `BlockReads` (each input block as entries of the arguments), `WholeArray` (blocks to the
  array, and the kernel's run). Here: the three frames, and the two runs side by side.
-/
import proofs.«162370_j47923245089349_2_alg».proof.Defs
import proofs.«162370_j47923245089349_2_alg».proof.Proof.Gen.Kernel
import proofs.«162370_j47923245089349_2_alg».proof.Proof.Gen.Kernel.Skeleton
import proofs.«162370_j47923245089349_2_alg».proof.Proof.Gen.Kernel.Launch
import proofs.«162370_j47923245089349_2_alg».proof.Proof.Gen.Kernel.Points
import proofs.«162370_j47923245089349_2_alg».proof.Proof.Gen.Kernel.Frame
import proofs.«162370_j47923245089349_2_alg».proof.Proof.Gen.KernelIdeal
import proofs.«162370_j47923245089349_2_alg».proof.Proof.Gen.KernelIdeal.Skeleton
import proofs.«162370_j47923245089349_2_alg».proof.Proof.Gen.KernelIdeal.Launch
import proofs.«162370_j47923245089349_2_alg».proof.Proof.Gen.KernelIdeal.Points
import proofs.«162370_j47923245089349_2_alg».proof.Proof.Gen.KernelIdeal.Frame
import proofs.«162370_j47923245089349_2_alg».proof.Proof.Gen.ReferenceIdeal
import proofs.«162370_j47923245089349_2_alg».proof.Proof.Gen.Pre_finite_inputs
import proofs.«162370_j47923245089349_2_alg».proof.Proof.Gen.KernelIdeal.Value
import proofs.«162370_j47923245089349_2_alg».proof.Proof.Gen.ReferenceIdeal.Run
import proofs.«162370_j47923245089349_2_alg».proof.Proof.Gen.ReferenceIdeal.Read
import proofs.«162370_j47923245089349_2_alg».proof.Proof.RefIsLayer
import proofs.«162370_j47923245089349_2_alg».proof.Proof.WholeArray
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel [Cert.Kernel.Facts] [Cert.Pre_finite_inputs.Facts] : Cert.frame_Kernel :=
  fun m ρ _ => Cert.Kernel.Gen.frame m ρ

/-- So does the kernel read over the extended reals. -/
theorem frame_kernelIdeal [Cert.KernelIdeal.Facts] [Cert.Pre_finite_inputs.Facts] : Cert.frame_KernelIdeal :=
  fun m ρ _ => Cert.KernelIdeal.Gen.frame m ρ

/-- The reference has no kernel: its frame is its run with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the three arguments both programs end with the layer of those arguments in their result
    arrays: the kernel block by block, the reference operation by operation. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.QLinear.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.QLinear.Ref.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
